-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v5_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x512 : Shape := ⟨3, ![8, 1024, 512]⟩
abbrev S512x2048 : Shape := ⟨2, ![512, 2048]⟩
abbrev S1 : Shape := ⟨1, ![1]⟩
abbrev S_ : Shape := ⟨0, ![]⟩

class Facts : Prop where
  bcast_S_S8x1024x512 : S_.BroadcastsInDim S8x1024x512 (![] : Fin 0 → Fin S8x1024x512.rank)
  reducesTo_S8x1024x512_S_d0_1_2 : S8x1024x512.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S8x1024x512 .f32) (main_arg1 : FVec F S512x2048 .f32) (main_arg2 : FVec F S1 .f32) : IVec S_ 1 :=
  let main_v0 : FVec F S8x1024x512 .f32 := Host.absf main_arg0
  let main_cst : FVec F S_ .f32 := constant S_ .f32 0x7F800000#32
  let main_v1 : FVec F S8x1024x512 .f32 := broadcastInDim S8x1024x512 ![] bcast_S_S8x1024x512 main_cst
  let main_v2 : IVec S8x1024x512 1 := cmpf .olt main_v0 main_v1
  let main_c : IVec S_ 1 := constantI S_ 1 1#1
  let main_v3 : IVec S_ 1 := (fun x v => Host.reduce IntOp.andi x v reducesTo_S8x1024x512_S_d0_1_2 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S8x1024x512 : Shape := ⟨3, ![8, 1024, 512]⟩
abbrev S512x2048 : Shape := ⟨2, ![512, 2048]⟩
abbrev S1 : Shape := ⟨1, ![1]⟩
abbrev S_ : Shape := ⟨0, ![]⟩
abbrev S1024x512 : Shape := ⟨2, ![1024, 512]⟩
abbrev S1024x1 : Shape := ⟨2, ![1024, 1]⟩
abbrev S8x128x512 : Shape := ⟨3, ![8, 128, 512]⟩
abbrev S128x512 : Shape := ⟨2, ![128, 512]⟩
abbrev S128x1 : Shape := ⟨2, ![128, 1]⟩
abbrev S1024x2048 : Shape := ⟨2, ![1024, 2048]⟩
abbrev S8x128x2048 : Shape := ⟨3, ![8, 128, 2048]⟩
abbrev S128 : Shape := ⟨1, ![128]⟩
abbrev S128x2048 : Shape := ⟨2, ![128, 2048]⟩

abbrev nBuf : Space → Nat
  | .hbm => 12
  | .vmem => 7
  | .smem => 0
  | _ => 0

abbrev bufTy : (tb : Table) → Fin (tcTables nBuf tb) → BufTy
  | .hbm, ⟨0, _⟩ => ⟨S8x1024x512, .f32⟩
  | .hbm, ⟨1, _⟩ => ⟨S512x2048, .f32⟩
  | .hbm, ⟨2, _⟩ => ⟨S1, .f32⟩
  | .hbm, ⟨3, _⟩ => ⟨S_, .f32⟩
  | .hbm, ⟨4, _⟩ => ⟨S512x2048, .f32⟩
  | .hbm, ⟨5, _⟩ => ⟨S512x2048, .f32⟩
  | .hbm, ⟨6, _⟩ => ⟨S512x2048, .bf16⟩
  | .hbm, ⟨7, _⟩ => ⟨S8x1024x512, .bf16⟩
  | .hbm, ⟨8, _⟩ => ⟨S1024x512, .f32⟩
  | .hbm, ⟨9, _⟩ => ⟨S1024x1, .f32⟩
  | .hbm, ⟨10, _⟩ => ⟨S_, .f32⟩
  | .hbm, ⟨11, _⟩ => ⟨S_, .f32⟩
  | .local _ .vmem, ⟨0, _⟩ => ⟨S8x128x512, .bf16⟩
  | .local _ .vmem, ⟨1, _⟩ => ⟨S8x128x512, .bf16⟩
  | .local _ .vmem, ⟨2, _⟩ => ⟨S512x2048, .bf16⟩
  | .local _ .vmem, ⟨3, _⟩ => ⟨S128x512, .f32⟩
  | .local _ .vmem, ⟨4, _⟩ => ⟨S128x512, .f32⟩
  | .local _ .vmem, ⟨5, _⟩ => ⟨S128x1, .f32⟩
  | .local _ .vmem, ⟨6, _⟩ => ⟨S128x1, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_cst : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1_S_ : S1.ShapeCasts S_
  bcast_S_S512x2048 : S_.BroadcastsInDim S512x2048 (![] : Fin 0 → Fin S512x2048.rank)
  bitsLt_bf16_f32 : FTy.bits .bf16 < FTy.bits .f32
  inb_S8x128x512_S8x128x512_0_0_0 : ∀ a, (![0, 0, 0] : Fin 3 → Nat) a + S8x128x512.size a ≤ S8x128x512.size a
  h_S8x128x512 : 0 < S8x128x512.numel
  shapeCasts_S8x128x512_S8x128x512 : S8x128x512.ShapeCasts S8x128x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  shapeCasts_S8x128x512_S1024x512 : S8x128x512.ShapeCasts S1024x512
  shapeCasts_S1024x2048_S8x128x2048 : S1024x2048.ShapeCasts S8x128x2048
  reduces_S8x128x2048_S128 : S8x128x2048.Reduces [0, 2] S128
  shapeCasts_S128_S128x1 : S128.ShapeCasts S128x1
  inb_S128x1_S128x1_0_0 : ∀ a, (![0, 0] : Fin 2 → Nat) a + S128x1.size a ≤ S128x1.size a
  h_S128x1 : 0 < S128x1.numel
  reduces_S8x128x2048_S128x2048 : S8x128x2048.Reduces [0] S128x2048
  inb_S128x512_S128x512_0_0 : ∀ a, (![0, 0] : Fin 2 → Nat) a + S128x512.size a ≤ S128x512.size a
  h_S128x512 : 0 < S128x512.numel
  reducesTo_S1024x1_S_d0_1 : S1024x1.ReducesTo [0, 1] S_
  h_S_ : 0 < S_.numel
  dot_S1024x512_S512x2048_S1024x2048_1_0_0_1_n_n_wf : DotDims.WF S1024x512 S512x2048 S1024x2048 [1] [0] [0] [1] [] []
  dot_S128x2048_S512x2048_S128x512_1_1_0_0_n_n_wf : DotDims.WF S128x2048 S512x2048 S128x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x512.size a ≤ S8x1024x512.size a
  hwx0_0 : ∀ i : grid0.Coords, EltTy.bits .bf16 = 32 ∨ (Rect.block (s := S8x1024x512) S8x128x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .bf16 = 32 ∨ (Rect.block (s := S512x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S1024x512.size a
  hwx0_2 : ∀ i : grid0.Coords, EltTy.bits .f32 = 32 ∨ (Rect.block (s := S1024x512) S128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S1024x1.size a
  hwx0_3 : ∀ i : grid0.Coords, EltTy.bits .f32 = 32 ∨ (Rect.block (s := S1024x1) S128x1.size (cc0_transform_3 i) (hinb0_3 i)).WholeWords (EltTy.packing .f32)

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf
def dot_S128x2048_S512x2048_S128x512_1_1_0_0_n_n : DotDims S128x2048 S512x2048 S128x512 where
  lhsContracting := [1]
  rhsContracting := [1]
  lhsNonContracting := [0]
  rhsNonContracting := [0]
  lhsBatch := []
  rhsBatch := []
  wf := dot_S128x2048_S512x2048_S128x512_1_1_0_0_n_n_wf

abbrev win0_0 : Pipeline.Window sig grid0 :=
  Pipeline.Window.ofSpec (Memref.whole main_v4) S8x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5_0) S128x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5_1) S128x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x1024x512 : Shape := ⟨3, ![8, 1024, 512]⟩
abbrev S512x2048 : Shape := ⟨2, ![512, 2048]⟩
abbrev S1 : Shape := ⟨1, ![1]⟩
abbrev S8x1024x2048 : Shape := ⟨3, ![8, 1024, 2048]⟩
abbrev S1x1x1 : Shape := ⟨3, ![1, 1, 1]⟩
abbrev S_ : Shape := ⟨0, ![]⟩
abbrev S1024x512 : Shape := ⟨2, ![1024, 512]⟩

abbrev nBuf : Space → Nat
  | .hbm => 35
  | .vmem => 0
  | .smem => 0
  | _ => 0

abbrev bufTy : (tb : Table) → Fin (tcTables nBuf tb) → BufTy
  | .hbm, ⟨0, _⟩ => ⟨S8x1024x512, .f32⟩
  | .hbm, ⟨1, _⟩ => ⟨S512x2048, .f32⟩
  | .hbm, ⟨2, _⟩ => ⟨S1, .f32⟩
  | .hbm, ⟨3, _⟩ => ⟨S8x1024x2048, .f32⟩
  | .hbm, ⟨4, _⟩ => ⟨S1x1x1, .f32⟩
  | .hbm, ⟨5, _⟩ => ⟨S8x1024x2048, .f32⟩
  | .hbm, ⟨6, _⟩ => ⟨S8x1024x2048, .f32⟩
  | .hbm, ⟨7, _⟩ => ⟨S_, .f32⟩
  | .hbm, ⟨8, _⟩ => ⟨S8x1024x2048, .f32⟩
  | .hbm, ⟨9, _⟩ => ⟨S8x1024x2048, .f32⟩
  | .hbm, ⟨10, _⟩ => ⟨S_, .f32⟩
  | .hbm, ⟨11, _⟩ => ⟨S8x1024x2048, .f32⟩
  | .hbm, ⟨12, _⟩ => ⟨S8x1024x2048, .i1⟩
  | .hbm, ⟨13, _⟩ => ⟨S_, .f32⟩
  | .hbm, ⟨14, _⟩ => ⟨S8x1024x2048, .f32⟩
  | .hbm, ⟨15, _⟩ => ⟨S8x1024x2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8x1024x2048, .f32⟩
  | .hbm, ⟨24, _⟩ => ⟨S8x1024x2048, .f32⟩
  | .hbm, ⟨25, _⟩ => ⟨S8x1024x2048, .f32⟩
  | .hbm, ⟨26, _⟩ => ⟨S8x1024x2048, .f32⟩
  | .hbm, ⟨27, _⟩ => ⟨S_, .f32⟩
  | .hbm, ⟨28, _⟩ => ⟨S8x1024x2048, .f32⟩
  | .hbm, ⟨29, _⟩ => ⟨S8x1024x2048, .f32⟩
  | .hbm, ⟨30, _⟩ => ⟨S8x1024x2048, .f32⟩
  | .hbm, ⟨31, _⟩ => ⟨S8x1024x2048, .f32⟩
  | .hbm, ⟨32, _⟩ => ⟨S8x1024x512, .f32⟩
  | .hbm, ⟨33, _⟩ => ⟨S_, .f32⟩
  | .hbm, ⟨34, _⟩ => ⟨S1024x512, .f32⟩
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_cst_3 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩

abbrev nD : Nat := 1
abbrev τ : Topo := Topo.v7x

variable {F : FTy → Type} [FloatOps F]

class Facts₀ : Prop where
  bcast_S1_S1x1x1_2 : S1.BroadcastsInDim S1x1x1 (![2] : Fin 1 → Fin S1x1x1.rank)
  bcast_S1x1x1_S8x1024x2048_0_1_2 : S1x1x1.BroadcastsInDim S8x1024x2048 (![0, 1, 2] : Fin 3 → Fin S8x1024x2048.rank)
  bcast_S_S8x1024x2048 : S_.BroadcastsInDim S8x1024x2048 (![] : Fin 0 → Fin S8x1024x2048.rank)
  reducesTo_S8x1024x2048_S_d0_1_2 : S8x1024x2048.ReducesTo [0, 1, 2] S_
  h_S_ : 0 < S_.numel
  reducesTo_S8x1024x512_S1024x512_d0 : S8x1024x512.ReducesTo [0] S1024x512
  dot_S8x1024x512_S512x2048_S8x1024x2048_2_0_01_1_n_n_wf : DotDims.WF S8x1024x512 S512x2048 S8x1024x2048 [2] [0] [0, 1] [1] [] []
  dot_S8x1024x2048_S512x2048_S8x1024x512_2_1_01_0_n_n_wf : DotDims.WF S8x1024x2048 S512x2048 S8x1024x512 [2] [1] [0, 1] [0] [] []

variable [Facts₀]

def dot_S8x1024x512_S512x2048_S8x1024x2048_2_0_01_1_n_n : DotDims S8x1024x512 S512x2048 S8x1024x2048 where
  lhsContracting := [2]
  rhsContracting := [0]
  lhsNonContracting := [0, 1]
  rhsNonContracting := [1]
  lhsBatch := []
  rhsBatch := []
  wf := dot_S8x1024x512_S512x2048_S8x1024x2048_2_0_01_1_n_n_wf
def dot_S8x1024x2048_S512x2048_S8x1024x512_2_1_01_0_n_n : DotDims S8x1024x2048 S512x2048 S8x1024x512 where
  lhsContracting := [2]
  rhsContracting := [1]
  lhsNonContracting := [0, 1]
  rhsNonContracting := [0]
  lhsBatch := []
  rhsBatch := []
  wf := dot_S8x1024x2048_S512x2048_S8x1024x512_2_1_01_0_n_n_wf

class Facts : Prop extends Facts₀ where

variable [Facts]
-- ==== Proof.Tile.lean ====
import proofs.«112203_j87780541596164_2_alg».proof.Proof.Gen.KernelIdeal.Skeleton
import Idealize.ShloMosaic.Lib.Pipeline.Value
import Idealize.ShloMosaic.Lib.ValueIdx
import Idealize.ShloMosaic.PureOps.Ideal.Laws

noncomputable section
open scoped BigOperators

namespace Cert.KernelIdeal.Tile

open Cert.KernelIdeal Cert.KernelIdeal.Gen Idealize.ShloMosaic Idealize.ShloMosaic.ValueIdx

/-! The body of one grid point works on a tile of 128 query rows, all 8 batch entries at once.
    Read at an index, its three values are: the activation `max (x · wb) 0` at (batch, row, hidden);
    the row's energy `-1/2 · Σ_{batch, hidden} activation²`; and the row's gradient
    `0 - Σ_hidden (Σ_batch activation) · wb[feature, hidden]`. -/

/-- Row `b * 128 + l` of the tile flattened to 1024 rows. -/
def flatRow (b : Fin 8) (l : Fin 128) : Fin 1024 := ⟨b.val * 128 + l.val, by omega⟩

/-! ## The two contractions as plain sums -/

theorem lhsA_0 (j : S1024x2048.Idx) (q : dot_S1024x512_S512x2048_S1024x2048_1_0_0_1_n_n.contr.Idx) :
    (dot_S1024x512_S512x2048_S1024x2048_1_0_0_1_n_n.lhsIdx j q 0).val = (j 0).val := by
  unfold DotDims.lhsIdx
  rw [dif_neg (show ¬(0 : Fin S1024x512.rank) ∈ dot_S1024x512_S512x2048_S1024x2048_1_0_0_1_n_n.lhsBatch by decide), dif_pos (show (0 : Fin S1024x512.rank) ∈ dot_S1024x512_S512x2048_S1024x2048_1_0_0_1_n_n.lhsNonContracting by decide)]
  rfl
theorem lhsA_1 (j : S1024x2048.Idx) (q : dot_S1024x512_S512x2048_S1024x2048_1_0_0_1_n_n.contr.Idx) :
    (dot_S1024x512_S512x2048_S1024x2048_1_0_0_1_n_n.lhsIdx j q 1).val = (q ⟨0, by decide⟩).val :=
  dot_S1024x512_S512x2048_S1024x2048_1_0_0_1_n_n.lhsIdx_val_of_single rfl j q
theorem rhsA_0 (j : S1024x2048.Idx) (q : dot_S1024x512_S512x2048_S1024x2048_1_0_0_1_n_n.contr.Idx) :
    (dot_S1024x512_S512x2048_S1024x2048_1_0_0_1_n_n.rhsIdx j q 0).val = (q ⟨0, by decide⟩).val :=
  dot_S1024x512_S512x2048_S1024x2048_1_0_0_1_n_n.rhsIdx_val_of_single rfl j q
theorem rhsA_1 (j : S1024x2048.Idx) (q : dot_S1024x512_S512x2048_S1024x2048_1_0_0_1_n_n.contr.Idx) :
    (dot_S1024x512_S512x2048_S1024x2048_1_0_0_1_n_n.rhsIdx j q 1).val = (j 1).val := by
  unfold DotDims.rhsIdx
  rw [dif_neg (show ¬(1 : Fin S512x2048.rank) ∈ dot_S1024x512_S512x2048_S1024x2048_1_0_0_1_n_n.rhsBatch by decide), dif_pos (show (1 : Fin S512x2048.rank) ∈ dot_S1024x512_S512x2048_S1024x2048_1_0_0_1_n_n.rhsNonContracting by decide)]
  rfl

/-- The first product (rows × features times features × hidden) into a zero accumulator, at (row, hidden). -/
theorem matmulA_apply (a : FVec Ideal S1024x512 .bf16) (w : FVec Ideal S512x2048 .bf16) (r : Fin 1024) (h : Fin 2048) :
    matmul dot_S1024x512_S512x2048_S1024x2048_1_0_0_1_n_n none a w (constant (F := Ideal) S1024x2048 .f32 0x00000000#32) (ix2 r h)
      = ∑ k : Fin 512, a (ix2 r k) * w (ix2 k h) := by
  refine (Ideal.matmul_constant_zero_apply dot_S1024x512_S512x2048_S1024x2048_1_0_0_1_n_n none a w (ix2 r h)).trans ?_
  rw [← Equiv.sum_comp (contrEquiv1 dot_S1024x512_S512x2048_S1024x2048_1_0_0_1_n_n 512 rfl rfl).symm]
  refine Finset.sum_congr rfl fun k _ => ?_
  have hk := contrEquiv1_symm_val dot_S1024x512_S512x2048_S1024x2048_1_0_0_1_n_n 512 rfl rfl k
  have el : dot_S1024x512_S512x2048_S1024x2048_1_0_0_1_n_n.lhsIdx (ix2 r h) ((contrEquiv1 dot_S1024x512_S512x2048_S1024x2048_1_0_0_1_n_n 512 rfl rfl).symm k) = ix2 r k := funext fun a => Fin.ext (by
    match a with
    | ⟨0, _⟩ => exact lhsA_0 _ _
    | ⟨1, _⟩ => exact (lhsA_1 _ _).trans hk)
  have er : dot_S1024x512_S512x2048_S1024x2048_1_0_0_1_n_n.rhsIdx (ix2 r h) ((contrEquiv1 dot_S1024x512_S512x2048_S1024x2048_1_0_0_1_n_n 512 rfl rfl).symm k) = ix2 k h := funext fun a => Fin.ext (by
    match a with
    | ⟨0, _⟩ => exact (rhsA_0 _ _).trans hk
    | ⟨1, _⟩ => exact rhsA_1 _ _)
  rw [el, er]

theorem lhsB_0 (j : S128x512.Idx) (q : dot_S128x2048_S512x2048_S128x512_1_1_0_0_n_n.contr.Idx) :
    (dot_S128x2048_S512x2048_S128x512_1_1_0_0_n_n.lhsIdx j q 0).val = (j 0).val := by
  unfold DotDims.lhsIdx
  rw [dif_neg (show ¬(0 : Fin S128x2048.rank) ∈ dot_S128x2048_S512x2048_S128x512_1_1_0_0_n_n.lhsBatch by decide), dif_pos (show (0 : Fin S128x2048.rank) ∈ dot_S128x2048_S512x2048_S128x512_1_1_0_0_n_n.lhsNonContracting by decide)]
  rfl
theorem lhsB_1 (j : S128x512.Idx) (q : dot_S128x2048_S512x2048_S128x512_1_1_0_0_n_n.contr.Idx) :
    (dot_S128x2048_S512x2048_S128x512_1_1_0_0_n_n.lhsIdx j q 1).val = (q ⟨0, by decide⟩).val :=
  dot_S128x2048_S512x2048_S128x512_1_1_0_0_n_n.lhsIdx_val_of_single rfl j q
theorem rhsB_0 (j : S128x512.Idx) (q : dot_S128x2048_S512x2048_S128x512_1_1_0_0_n_n.contr.Idx) :
    (dot_S128x2048_S512x2048_S128x512_1_1_0_0_n_n.rhsIdx j q 0).val = (j 1).val := by
  unfold DotDims.rhsIdx
  rw [dif_neg (show ¬(0 : Fin S512x2048.rank) ∈ dot_S128x2048_S512x2048_S128x512_1_1_0_0_n_n.rhsBatch by decide), dif_pos (show (0 : Fin S512x2048.rank) ∈ dot_S128x2048_S512x2048_S128x512_1_1_0_0_n_n.rhsNonContracting by decide)]
  rfl
theorem rhsB_1 (j : S128x512.Idx) (q : dot_S128x2048_S512x2048_S128x512_1_1_0_0_n_n.contr.Idx) :
    (dot_S128x2048_S512x2048_S128x512_1_1_0_0_n_n.rhsIdx j q 1).val = (q ⟨0, by decide⟩).val :=
  dot_S128x2048_S512x2048_S128x512_1_1_0_0_n_n.rhsIdx_val_of_single rfl j q

/-- The second product contracts the hidden axis of BOTH operands (rows × hidden times features × hidden),
    into a zero accumulator, at (row, feature). -/
theorem matmulB_apply (a : FVec Ideal S128x2048 .bf16) (w : FVec Ideal S512x2048 .bf16) (l : Fin 128) (d : Fin 512) :
    matmul dot_S128x2048_S512x2048_S128x512_1_1_0_0_n_n none a w (constant (F := Ideal) S128x512 .f32 0x00000000#32) (ix2 l d)
      = ∑ h : Fin 2048, a (ix2 l h) * w (ix2 d h) := by
  refine (Ideal.matmul_constant_zero_apply dot_S128x2048_S512x2048_S128x512_1_1_0_0_n_n none a w (ix2 l d)).trans ?_
  rw [← Equiv.sum_comp (contrEquiv1 dot_S128x2048_S512x2048_S128x512_1_1_0_0_n_n 2048 rfl rfl).symm]
  refine Finset.sum_congr rfl fun k _ => ?_
  have hk := contrEquiv1_symm_val dot_S128x2048_S512x2048_S128x512_1_1_0_0_n_n 2048 rfl rfl k
  have el : dot_S128x2048_S512x2048_S128x512_1_1_0_0_n_n.lhsIdx (ix2 l d) ((contrEquiv1 dot_S128x2048_S512x2048_S128x512_1_1_0_0_n_n 2048 rfl rfl).symm k) = ix2 l k := funext fun a => Fin.ext (by
    match a with
    | ⟨0, _⟩ => exact lhsB_0 _ _
    | ⟨1, _⟩ => exact (lhsB_1 _ _).trans hk)
  have er : dot_S128x2048_S512x2048_S128x512_1_1_0_0_n_n.rhsIdx (ix2 l d) ((contrEquiv1 dot_S128x2048_S512x2048_S128x512_1_1_0_0_n_n 2048 rfl rfl).symm k) = ix2 d k := funext fun a => Fin.ext (by
    match a with
    | ⟨0, _⟩ => exact rhsB_0 _ _
    | ⟨1, _⟩ => exact (rhsB_1 _ _).trans hk)
  rw [el, er]

/-! ## The activation -/

/-- The activation at (batch, row, hidden): the row of the tile against the hidden unit's column of the weights,
    clipped below at zero. -/
theorem act_apply (x0 : Vec Ideal S8x128x512 .bf16) (wb : Vec Ideal S512x2048 .bf16) (b : Fin 8) (l : Fin 128) (h : Fin 2048) :
    k0_pay2 (F := Ideal) x0 wb (ix3 b l h)
      = max (∑ k : Fin 512, x0 (ix3 b l k) * wb (ix2 k h)) (Ideal.ofBits .f32 0x00000000#32) := by
  unfold k0_pay2 k0_pay1
  refine (shapeCast_apply _ _ (ix3 b l h) (ix2 (flatRow b l) h) (by rw [Shape.rowMajor_val_two, Shape.rowMajor_val_three]; rfl)).trans ?_
  refine congrArg (fun v => max v (Ideal.ofBits .f32 0x00000000#32)) ?_
  refine (matmulA_apply _ _ (flatRow b l) h).trans ?_
  refine Finset.sum_congr rfl fun k _ => ?_
  refine congrArg₂ (· * ·) ?_ ?_
  · refine (shapeCast_apply _ _ (ix2 (flatRow b l) k) (ix3 b l k) (by rw [Shape.rowMajor_val_two, Shape.rowMajor_val_three]; rfl)).trans ?_
    exact congrFun (shapeCast_self x0 _) _
  · exact congrFun (shapeCast_self wb _) _

/-! ## Sums over the tile -/

/-- A sum over the entries of an 8 × 128 × 2048 block that lie in row `l` — the entries a reduction over the
    batch and hidden axes sends to `l` — is the double sum over batch and hidden of the block at (batch, l, hidden). -/
theorem sum_row (v : S8x128x2048.Idx → EReal) (hr : S8x128x2048.Reduces [0, 2] S128) (l : Fin 128) :
    ∑ i ∈ Finset.univ.filter (fun i => hr.drop i = ix1 l), v i = ∑ b : Fin 8, ∑ h : Fin 2048, v (ix3 b l h) := by
  have hdrop : ∀ i : S8x128x2048.Idx, (hr.drop i 0 : Nat) = (i 1).val := fun i => hr.drop_apply_val_of_eq i 0 1
  rw [← Fintype.sum_prod_type' (f := fun (b : Fin 8) (h : Fin 2048) => v (ix3 b l h))]
  symm
  refine Finset.sum_nbij' (fun p : Fin 8 × Fin 2048 => ix3 p.1 l p.2) (fun i : S8x128x2048.Idx => ((i 0, i 2) : Fin 8 × Fin 2048)) ?_ ?_ ?_ ?_ ?_
  · intro p _
    refine Finset.mem_filter.mpr ⟨Finset.mem_univ _, ?_⟩
    funext a
    match a with
    | ⟨0, _⟩ => exact Fin.ext (hdrop _)
  · intro i _; exact Finset.mem_univ _
  · intro p _; rfl
  · intro i hi
    have e : hr.drop i = ix1 l := (Finset.mem_filter.mp hi).2
    have e1 : (i 1).val = l.val := (hdrop i).symm.trans (congrArg (fun j : S128.Idx => (j 0).val) e)
    funext a
    match a with
    | ⟨0, _⟩ => rfl
    | ⟨1, _⟩ => exact Fin.ext e1.symm
    | ⟨2, _⟩ => rfl
  · intro p _; rfl

/-! ## The row's energy -/

/-- The energy the body stores for row `l` (the one column of the 128 × 1 block): minus one half of the sum,
    over batch and hidden, of the squared activation. -/
theorem rowEnergy_apply (x0 : Vec Ideal S8x128x512 .bf16) (wb : Vec Ideal S512x2048 .bf16) (l : Fin 128) (u : Fin 1) :
    k0_pay3 (F := Ideal) x0 wb (ix2 l u)
      = Ideal.ofBits .f32 0xBF000000#32
        * ∑ b : Fin 8, ∑ h : Fin 2048, k0_pay2 (F := Ideal) x0 wb (ix3 b l h) * k0_pay2 (F := Ideal) x0 wb (ix3 b l h) := by
  unfold k0_pay3
  refine (shapeCast_apply _ _ (ix2 l u) (ix1 l) (by
    rw [Shape.rowMajor_val_one, Shape.rowMajor_val_two]
    show l.val = l.val * 1 + u.val
    have := u.isLt; omega)).trans ?_
  refine congrArg (fun v => Ideal.ofBits .f32 0xBF000000#32 * v) ?_
  exact sum_row (fun i => k0_pay2 (F := Ideal) x0 wb i * k0_pay2 (F := Ideal) x0 wb i) reduces_S8x128x2048_S128 l

/-! ## The row's gradient -/

/-- The batch sum of the activation at (row, hidden). -/
theorem batchSum_apply (v : FVec Ideal S8x128x2048 .f32) (l : Fin 128) (h : Fin 2048) :
    Ideal.reduceAdd reduces_S8x128x2048_S128x2048 v (ix2 l h) = ∑ b : Fin 8, v (ix3 b l h) := by
  refine (Ideal.reduceAdd_single reduces_S8x128x2048_S128x2048 v (ix2 l h)).trans ?_
  refine Finset.sum_congr rfl fun b _ => congrArg v (funext fun a => Fin.ext ?_)
  match a with
  | ⟨0, _⟩ => rfl
  | ⟨1, _⟩ => rfl
  | ⟨2, _⟩ => rfl

/-- The gradient the body stores at (row, feature): zero minus the sum over hidden of the batch-summed
    activation times the weight at (feature, hidden). -/
theorem rowGrad_apply (x0 : Vec Ideal S8x128x512 .bf16) (wb : Vec Ideal S512x2048 .bf16) (l : Fin 128) (d : Fin 512) :
    k0_pay4 (F := Ideal) x0 wb (ix2 l d)
      = Ideal.ofBits .f32 0x00000000#32
        - ∑ h : Fin 2048, (∑ b : Fin 8, k0_pay2 (F := Ideal) x0 wb (ix3 b l h)) * wb (ix2 d h) := by
  unfold k0_pay4 k0_pay1
  refine congrArg (fun v => Ideal.ofBits .f32 0x00000000#32 - v) ?_
  refine (matmulB_apply _ _ l d).trans ?_
  refine Finset.sum_congr rfl fun h _ => ?_
  refine congrArg₂ (· * ·) ?_ ?_
  · exact batchSum_apply (k0_pay2 (F := Ideal) x0 wb) l h
  · exact congrFun (shapeCast_self wb _) _

end Cert.KernelIdeal.Tile
end
-- ==== Proof.Arrays.lean ====
import proofs.«112203_j87780541596164_2_alg».proof.Proof.Gen.KernelIdeal.Frame
import proofs.«112203_j87780541596164_2_alg».proof.Proof.Tile
import Idealize.ShloMosaic.Lib.Pipeline.Value
import Idealize.ShloMosaic.Lib.ValueIdx
import Idealize.ShloMosaic.PureOps.Ideal.Laws

noncomputable section
open scoped BigOperators

namespace Cert.KernelIdeal.Arrays

open Cert.KernelIdeal Cert.KernelIdeal.Gen Cert.KernelIdeal.Tile Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! Block by block to whole arrays: each grid point writes back one tile of 128 query rows of the gradient and
    of the per-row energies; the tile is the corresponding block of ONE whole-array function of the staged input and
    weights, and the eight tiles cover the arrays. -/

theorem hz2 : (![0, 0] : Fin 2 → Nat) = fun _ => 0 := funext fun a => by fin_cases a <;> rfl
theorem hz3 : (![0, 0, 0] : Fin 3 → Nat) = fun _ => 0 := funext fun a => by fin_cases a <;> rfl

/-- The grid point as a number below 8: which tile of 128 query rows the point works on. -/
def tileOf (t : Fin cfg0.N) : Fin 8 := ⟨t.val, by have := t.isLt; have h : cfg0.N = 8 := N_0; omega⟩
/-- Row `l` of tile `q` is query row `128 q + l`. -/
def rowOf (q : Fin 8) (l : Fin 128) : Fin 1024 := ⟨q.val * 128 + l.val, by omega⟩

/-- The printed index maps, decided over the grid: the input tile and both output tiles move along the query rows
    with the point; the weights stay. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The input tile at point `t` is query rows `128 t … 128 t + 127` of the staged input, every batch entry. -/
theorem xblk_apply (c : Dev nD) (t : Fin cfg0.N) (b : Fin 8) (l : Fin 128) (k : Fin 512) :
    (iblk m c 0 t : Vec Ideal S8x128x512 .bf16) (ix3 b l k)
      = (V m c main_v4 : S8x1024x512.Idx → EReal) (ix3 b (rowOf (tileOf t) l) k) := by
  obtain ⟨e0, e1, e2, -⟩ := idx_facts t
  show V m c main_v4 (((cfg0.win 0).blk t).view.emb (ix3 b l k)) = V m c main_v4 (ix3 b (rowOf (tileOf t) l) k)
  refine congrArg (V m c main_v4) (funext fun a => Fin.ext ?_)
  match a with
  | ⟨0, _⟩ => show win0_0.index t (0 : Fin 3) * 8 + 1 * b.val = b.val; omega
  | ⟨1, _⟩ => show win0_0.index t (1 : Fin 3) * 128 + 1 * l.val = t.val * 128 + l.val; omega
  | ⟨2, _⟩ => show win0_0.index t (2 : Fin 3) * 512 + 1 * k.val = k.val; omega

/-- The weights' block is the whole staged array at every point. -/
theorem wblk_apply (c : Dev nD) (t : Fin cfg0.N) (k : Fin 512) (h : Fin 2048) :
    (iblk m c 1 t : Vec Ideal S512x2048 .bf16) (ix2 k h) = (V m c main_v3 : S512x2048.Idx → EReal) (ix2 k h) := by
  obtain ⟨-, -, -, e3, e4, -⟩ := idx_facts t
  show V m c main_v3 (((cfg0.win 1).blk t).view.emb (ix2 k h)) = V m c main_v3 (ix2 k h)
  refine congrArg (V m c main_v3) (funext fun a => Fin.ext ?_)
  match a with
  | ⟨0, _⟩ => show win0_1.index t (0 : Fin 2) * 512 + 1 * k.val = k.val; omega
  | ⟨1, _⟩ => show win0_1.index t (1 : Fin 2) * 2048 + 1 * h.val = h.val; omega

/-! ## The two output arrays as whole-array functions of the staged arrays -/

/-- The activation at (batch, query row, hidden), from the staged input and weights. -/
def actAt (xs : S8x1024x512.Idx → EReal) (wb : S512x2048.Idx → EReal) (b : Fin 8) (r : Fin 1024) (h : Fin 2048) : EReal :=
  max (∑ k : Fin 512, xs (ix3 b r k) * wb (ix2 k h)) (Ideal.ofBits .f32 0x00000000#32)

/-- The gradient array: at (query row, feature), zero minus the sum over hidden of the batch-summed activation
    times the weight at (feature, hidden). -/
def gradArr (xs : S8x1024x512.Idx → EReal) (wb : S512x2048.Idx → EReal) : S1024x512.Idx → EReal := fun i =>
  Ideal.ofBits .f32 0x00000000#32 - ∑ h : Fin 2048, (∑ b : Fin 8, actAt xs wb b (i 0) h) * wb (ix2 (i 1) h)

/-- The per-row energies: at query row `r`, minus one half of the sum over batch and hidden of the squared activation. -/
def rowsArr (xs : S8x1024x512.Idx → EReal) (wb : S512x2048.Idx → EReal) : S1024x1.Idx → EReal := fun i =>
  Ideal.ofBits .f32 0xBF000000#32 * ∑ b : Fin 8, ∑ h : Fin 2048, actAt xs wb b (i 0) h * actAt xs wb b (i 0) h

/-- At point `t` the body's activation at (batch, l, hidden) is the whole-array activation at query row `128 t + l`. -/
theorem actBlock (c : Dev nD) (t : Fin cfg0.N) (b : Fin 8) (l : Fin 128) (h : Fin 2048) :
    k0_pay2 (F := Ideal) (iblk m c 0 t) (iblk m c 1 t) (ix3 b l h)
      = actAt (V m c main_v4) (V m c main_v3) b (rowOf (tileOf t) l) h := by
  refine (act_apply (iblk m c 0 t) (iblk m c 1 t) b l h).trans ?_
  refine congrArg (fun v => max v (Ideal.ofBits .f32 0x00000000#32)) (Finset.sum_congr rfl fun k _ => ?_)
  exact congrArg₂ (· * ·) (xblk_apply m c t b l k) (wblk_apply m c t k h)

theorem gradBlock (c : Dev nD) (t : Fin cfg0.N) (l : Fin 128) (d : Fin 512) :
    k0_pay4 (F := Ideal) (iblk m c 0 t) (iblk m c 1 t) (ix2 l d)
      = gradArr (V m c main_v4) (V m c main_v3) (ix2 (rowOf (tileOf t) l) d) := by
  refine (rowGrad_apply (iblk m c 0 t) (iblk m c 1 t) l d).trans ?_
  refine congrArg (fun v => Ideal.ofBits .f32 0x00000000#32 - v) (Finset.sum_congr rfl fun h _ => ?_)
  exact congrArg₂ (· * ·) (Finset.sum_congr rfl fun b _ => actBlock m c t b l h) (wblk_apply m c t d h)

theorem rowsBlock (c : Dev nD) (t : Fin cfg0.N) (l : Fin 128) (u : Fin 1) :
    k0_pay3 (F := Ideal) (iblk m c 0 t) (iblk m c 1 t) (ix2 l u)
      = rowsArr (V m c main_v4) (V m c main_v3) (ix2 (rowOf (tileOf t) l) u) := by
  refine (rowEnergy_apply (iblk m c 0 t) (iblk m c 1 t) l u).trans ?_
  refine congrArg (fun v => Ideal.ofBits .f32 0xBF000000#32 * v) (Finset.sum_congr rfl fun b _ => Finset.sum_congr rfl fun h _ => ?_)
  exact congrArg₂ (· * ·) (actBlock m c t b l h) (actBlock m c t b l h)

/-! ## What a point writes back, and the arrays after the run -/

/-- WHAT POINT `t` WRITES BACK to the gradient array is block `t` of `gradArr`. -/
theorem flushedGrad (c : Dev nD) (t : Fin cfg0.N) :
    (dats m 0 c).flushed 2 t = ((cfg0.win 2).blk t).view.read (Elt Ideal) (gradArr (V m c main_v4) (V m c main_v3)) := by
  show (cfg0.win 2).cut (grid0.coords t) ((dats m 0 c).after 2 t) = _
  rw [after0_2]
  unfold out0_2
  rw [View.canon_unit_zero hz2]
  simp only [View.ld_unit_zero (S := S8x128x512) hz3, View.ld_unit_zero (S := S512x2048) hz2]
  obtain ⟨-, -, -, -, -, e5, e6, -⟩ := idx_facts t
  funext j
  obtain ⟨l, d, rfl⟩ : ∃ (l : Fin 128) (d : Fin 512), j = ix2 l d := ⟨j 0, j 1, eq_ix2 j⟩
  show k0_pay4 (iblk m c 0 t) (iblk m c 1 t) (ix2 l d)
    = gradArr (V m c main_v4) (V m c main_v3) (((cfg0.win 2).blk t).view.emb (ix2 l d))
  have he : ((cfg0.win 2).blk t).view.emb (ix2 l d) = ix2 (rowOf (tileOf t) l) d := funext fun a => Fin.ext (by
    match a with
    | ⟨0, _⟩ => show win0_2.index t (0 : Fin 2) * 128 + 1 * l.val = t.val * 128 + l.val; omega
    | ⟨1, _⟩ => show win0_2.index t (1 : Fin 2) * 512 + 1 * d.val = d.val; omega)
  rw [he]
  exact gradBlock m c t l d

/-- WHAT POINT `t` WRITES BACK to the per-row energies is block `t` of `rowsArr`. -/
theorem flushedRows (c : Dev nD) (t : Fin cfg0.N) :
    (dats m 0 c).flushed 3 t = ((cfg0.win 3).blk t).view.read (Elt Ideal) (rowsArr (V m c main_v4) (V m c main_v3)) := by
  show (cfg0.win 3).cut (grid0.coords t) ((dats m 0 c).after 3 t) = _
  rw [after0_3]
  unfold out0_3
  rw [View.canon_unit_zero hz2]
  simp only [View.ld_unit_zero (S := S8x128x512) hz3, View.ld_unit_zero (S := S512x2048) hz2]
  obtain ⟨-, -, -, -, -, -, -, e7, e8⟩ := idx_facts t
  funext j
  obtain ⟨l, u, rfl⟩ : ∃ (l : Fin 128) (u : Fin 1), j = ix2 l u := ⟨j 0, j 1, eq_ix2 j⟩
  show k0_pay3 (iblk m c 0 t) (iblk m c 1 t) (ix2 l u)
    = rowsArr (V m c main_v4) (V m c main_v3) (((cfg0.win 3).blk t).view.emb (ix2 l u))
  have he : ((cfg0.win 3).blk t).view.emb (ix2 l u) = ix2 (rowOf (tileOf t) l) u := funext fun a => Fin.ext (by
    match a with
    | ⟨0, _⟩ => show win0_3.index t (0 : Fin 2) * 128 + 1 * l.val = t.val * 128 + l.val; omega
    | ⟨1, _⟩ => show win0_3.index t (1 : Fin 2) * 1 + 1 * u.val = u.val; omega)
  rw [he]
  exact rowsBlock m c t l u

/-- An index of the gradient array is in point `t`'s block iff each coordinate is in the block's range. -/
theorem mem_blkGrad (t : Fin cfg0.N) (i : S1024x512.Idx) :
    i ∈ ((cfg0.win 2).blk t).view.set ↔ ∀ a : Fin 2, win0_2.index t a * S128x512.size a ≤ (i a).val ∧ (i a).val < win0_2.index t a * S128x512.size a + S128x512.size a := by
  show i ∈ ((View.whole main_v5_0).slice (win0_2.rect t)).set ↔ _
  rw [View.set_slice_whole, Rect.mem_set_unit]
  exact Iff.rfl

theorem mem_blkRows (t : Fin cfg0.N) (i : S1024x1.Idx) :
    i ∈ ((cfg0.win 3).blk t).view.set ↔ ∀ a : Fin 2, win0_3.index t a * S128x1.size a ≤ (i a).val ∧ (i a).val < win0_3.index t a * S128x1.size a + S128x1.size a := by
  show i ∈ ((View.whole main_v5_1).slice (win0_3.rect t)).set ↔ _
  rw [View.set_slice_whole, Rect.mem_set_unit]
  exact Iff.rfl

/-- Query row `r` lies in the block of the point `r / 128`: the eight blocks tile the gradient array. -/
theorem coverGrad (i : S1024x512.Idx) : ∃ t : Fin cfg0.N, (cfg0.win 2).flush t = true ∧ i ∈ ((cfg0.win 2).blk t).view.set := by
  have hN : cfg0.N = 8 := N_0
  have hi0 : (i 0).val < 1024 := (i 0).isLt
  have hi1 : (i 1).val < 512 := (i 1).isLt
  obtain ⟨t, ht⟩ : ∃ t : Fin cfg0.N, t.val = (i 0).val / 128 := ⟨⟨(i 0).val / 128, by omega⟩, rfl⟩
  obtain ⟨-, -, -, -, -, e5, e6, -⟩ := idx_facts t
  refine ⟨t, flush0_2 t, ?_⟩
  rw [mem_blkGrad]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 512 ≤ (i 1).val ∧ (i 1).val < win0_2.index t (1 : Fin 2) * 512 + 512; omega

theorem coverRows (i : S1024x1.Idx) : ∃ t : Fin cfg0.N, (cfg0.win 3).flush t = true ∧ i ∈ ((cfg0.win 3).blk t).view.set := by
  have hN : cfg0.N = 8 := N_0
  have hi0 : (i 0).val < 1024 := (i 0).isLt
  have hi1 : (i 1).val < 1 := (i 1).isLt
  obtain ⟨t, ht⟩ : ∃ t : Fin cfg0.N, t.val = (i 0).val / 128 := ⟨⟨(i 0).val / 128, by omega⟩, rfl⟩
  obtain ⟨-, -, -, -, -, -, -, e7, e8⟩ := idx_facts t
  refine ⟨t, flush0_3 t, ?_⟩
  rw [mem_blkRows]
  intro a
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 1 ≤ (i 1).val ∧ (i 1).val < win0_3.index t (1 : Fin 2) * 1 + 1; omega

/-- THE GRADIENT ARRAY after the run is `gradArr` of the staged arrays. -/
theorem finalGrad (c : Dev nD) : (dats m 0 c).arrAt 2 cfg0.N = gradArr (V m c main_v4) (V m c main_v3) :=
  (dats m 0 c).arrAt_eq_of_cover 2 (gradArr (V m c main_v4) (V m c main_v3)) (fun t _ => flushedGrad m c t) coverGrad

/-- THE PER-ROW ENERGIES after the run are `rowsArr` of the staged arrays. -/
theorem finalRows (c : Dev nD) : (dats m 0 c).arrAt 3 cfg0.N = rowsArr (V m c main_v4) (V m c main_v3) :=
  (dats m 0 c).arrAt_eq_of_cover 3 (rowsArr (V m c main_v4) (V m c main_v3)) (fun t _ => flushedRows m c t) coverRows

end Cert.KernelIdeal.Arrays
end
-- ==== Proof.EnergyGradAlgebra.lean ====
import Mathlib

/-!
# Two identities on the extended reals, for real inputs

On `EReal` distributivity and moving a factor across a sum fail at the infinities.
Both identities below are therefore stated on inputs that are coercions of real numbers,
and each is proved by showing that both sides are the coercion of one real expression
and then proving the identity in `ℝ`.
-/

noncomputable section

open scoped BigOperators

namespace Cert.EnergyGrad

variable {B D H L : Type} [Fintype B] [Fintype D] [Fintype H] [Fintype L]

/-- the kernel's activation: the weights carry the scale -/
def actK (x : B → D → EReal) (w : D → H → EReal) (β z : EReal) (b : B) (h : H) : EReal :=
  max (∑ k, x b k * (β * w k h)) z
/-- the reference's activation: the product is scaled afterwards -/
def actR (x : B → D → EReal) (w : D → H → EReal) (β z : EReal) (b : B) (h : H) : EReal :=
  max (β * ∑ k, x b k * w k h) z
def gradK (x : B → D → EReal) (w : D → H → EReal) (β z : EReal) (d : D) : EReal :=
  z - ∑ h, (∑ b, actK x w β z b h) * (β * w d h)
def gradR (x : B → D → EReal) (w : D → H → EReal) (β z nh one : EReal) (d : D) : EReal :=
  z + ∑ b, ∑ h, (β * (if z < β * ∑ k, x b k * w k h then actR x w β z b h * (nh * one) + (nh * one) * actR x w β z b h else z)) * w d h
def energyK (x : L → B → D → EReal) (w : D → H → EReal) (β z nh : EReal) : EReal :=
  z + ∑ l, ∑ _u : Fin 1, nh * ∑ b, ∑ h, actK (x l) w β z b h * actK (x l) w β z b h
def energyR (x : L → B → D → EReal) (w : D → H → EReal) (β z nh : EReal) : EReal :=
  nh * (z + ∑ b, ∑ l, ∑ h, actR (x l) w β z b h * actR (x l) w β z b h)

/-- the coercion of a finite real sum is the sum of the coercions -/
private lemma coe_sum {ι : Type} (s : Finset ι) (f : ι → ℝ) :
    ((∑ i ∈ s, f i : ℝ) : EReal) = ∑ i ∈ s, ((f i : ℝ) : EReal) := by
  classical
  induction s using Finset.induction_on with
  | empty => rw [Finset.sum_empty, Finset.sum_empty, EReal.coe_zero]
  | insert a s ha ih => rw [Finset.sum_insert ha, Finset.sum_insert ha, EReal.coe_add, ih]

/-- the coercion is monotone, so it commutes with `max` -/
private lemma coe_max (a c : ℝ) : ((max a c : ℝ) : EReal) = max (a : EReal) (c : EReal) :=
  EReal.coe_strictMono.monotone.map_max

/-- the scaled product of the reference is the coercion of the real sum
`∑ k, X b k * (βr * W k h)` -/
private lemma scaled_coe (X : B → D → ℝ) (W : D → H → ℝ) (βr : ℝ) (b : B) (h : H) :
    (βr : EReal) * ∑ k, (X b k : EReal) * (W k h : EReal)
      = ((∑ k, X b k * (βr * W k h) : ℝ) : EReal) := by
  have hreal : (∑ k, X b k * (βr * W k h) : ℝ) = βr * ∑ k, X b k * W k h := by
    rw [Finset.mul_sum]
    exact Finset.sum_congr rfl fun k _ => by ring
  rw [hreal, EReal.coe_mul, coe_sum]
  simp only [EReal.coe_mul]

/-- the kernel's activation on real inputs is the coercion of `max (∑ k, X b k * (βr * W k h)) 0` -/
private lemma actK_coe (X : B → D → ℝ) (W : D → H → ℝ) (βr : ℝ) (b : B) (h : H) :
    actK (fun b k => (X b k : EReal)) (fun k h => (W k h : EReal)) (βr : EReal) 0 b h
      = ((max (∑ k, X b k * (βr * W k h)) 0 : ℝ) : EReal) := by
  unfold actK
  rw [coe_max, coe_sum, EReal.coe_zero]
  simp only [EReal.coe_mul]

/-- the reference's activation on real inputs is the coercion of the same real number -/
private lemma actR_coe (X : B → D → ℝ) (W : D → H → ℝ) (βr : ℝ) (b : B) (h : H) :
    actR (fun b k => (X b k : EReal)) (fun k h => (W k h : EReal)) (βr : EReal) 0 b h
      = ((max (∑ k, X b k * (βr * W k h)) 0 : ℝ) : EReal) := by
  unfold actR
  rw [scaled_coe, coe_max, EReal.coe_zero]

/-- the reference's selected term: where `0 < p` it is `-p`, elsewhere `0`;
in both cases it is `-(max p 0)` -/
private lemma select_coe (p : ℝ) :
    (if (0 : EReal) < (p : EReal)
        then ((max p 0 : ℝ) : EReal) * (((-(1/2) : ℝ) : EReal) * 1)
          + (((-(1/2) : ℝ) : EReal) * 1) * ((max p 0 : ℝ) : EReal)
        else 0)
      = ((-(max p 0) : ℝ) : EReal) := by
  by_cases hp : 0 < p
  · rw [if_pos (EReal.coe_pos.2 hp), max_eq_left hp.le, mul_one, ← EReal.coe_mul, ← EReal.coe_mul,
      ← EReal.coe_add]
    congr 1
    ring
  · rw [if_neg (fun hc => hp (EReal.coe_pos.1 hc)), max_eq_right (not_lt.mp hp), neg_zero,
      EReal.coe_zero]

theorem gradR_eq_gradK (X : B → D → ℝ) (W : D → H → ℝ) (βr : ℝ) {z nh one : EReal}
    (hz : z = 0) (hnh : nh = ((-(1/2) : ℝ) : EReal)) (hone : one = 1) (d : D) :
    gradR (fun b k => (X b k : EReal)) (fun k h => (W k h : EReal)) (βr : EReal) z nh one d
      = gradK (fun b k => (X b k : EReal)) (fun k h => (W k h : EReal)) (βr : EReal) z d := by
  subst hz hnh hone
  -- the kernel's side is the coercion of a real expression
  have hK : gradK (fun b k => (X b k : EReal)) (fun k h => (W k h : EReal)) (βr : EReal) 0 d
      = ((0 - ∑ h, (∑ b, max (∑ k, X b k * (βr * W k h)) 0) * (βr * W d h) : ℝ) : EReal) := by
    unfold gradK
    simp only [actK_coe]
    simp only [EReal.coe_sub, EReal.coe_zero, coe_sum, EReal.coe_mul]
  -- the reference's side is the coercion of a real expression
  have hR : gradR (fun b k => (X b k : EReal)) (fun k h => (W k h : EReal)) (βr : EReal) 0
        ((-(1/2) : ℝ) : EReal) 1 d
      = ((0 + ∑ b, ∑ h, (βr * -(max (∑ k, X b k * (βr * W k h)) 0)) * W d h : ℝ) : EReal) := by
    unfold gradR
    simp only [actR_coe, scaled_coe, select_coe]
    simp only [EReal.coe_add, EReal.coe_zero, coe_sum, EReal.coe_mul]
  rw [hK, hR]
  congr 1
  -- the identity in ℝ
  rw [zero_add, zero_sub, Finset.sum_comm, ← Finset.sum_neg_distrib]
  refine Finset.sum_congr rfl fun h _ => ?_
  rw [Finset.sum_mul, ← Finset.sum_neg_distrib]
  exact Finset.sum_congr rfl fun b _ => by ring

theorem energyR_eq_energyK (X : L → B → D → ℝ) (W : D → H → ℝ) (βr : ℝ) {z nh : EReal}
    (hz : z = 0) (hnh : nh = ((-(1/2) : ℝ) : EReal)) :
    energyR (fun l b k => (X l b k : EReal)) (fun k h => (W k h : EReal)) (βr : EReal) z nh
      = energyK (fun l b k => (X l b k : EReal)) (fun k h => (W k h : EReal)) (βr : EReal) z nh := by
  subst hz hnh
  -- the kernel's side is the coercion of a real expression
  have hK : energyK (fun l b k => (X l b k : EReal)) (fun k h => (W k h : EReal)) (βr : EReal) 0
        ((-(1/2) : ℝ) : EReal)
      = ((0 + ∑ l, ∑ _u : Fin 1, (-(1/2)) * ∑ b, ∑ h,
          max (∑ k, X l b k * (βr * W k h)) 0 * max (∑ k, X l b k * (βr * W k h)) 0 : ℝ) : EReal) := by
    unfold energyK
    simp only [actK_coe]
    simp only [EReal.coe_add, EReal.coe_zero, coe_sum, EReal.coe_mul]
  -- the reference's side is the coercion of a real expression
  have hR : energyR (fun l b k => (X l b k : EReal)) (fun k h => (W k h : EReal)) (βr : EReal) 0
        ((-(1/2) : ℝ) : EReal)
      = (((-(1/2)) * (0 + ∑ b, ∑ l, ∑ h,
          max (∑ k, X l b k * (βr * W k h)) 0 * max (∑ k, X l b k * (βr * W k h)) 0) : ℝ) : EReal) := by
    unfold energyR
    simp only [actR_coe]
    simp only [EReal.coe_add, EReal.coe_zero, coe_sum, EReal.coe_mul]
  rw [hK, hR]
  congr 1
  -- the identity in ℝ
  rw [zero_add, zero_add, Finset.sum_comm, Finset.mul_sum]
  exact Finset.sum_congr rfl fun l _ => by rw [Fin.sum_univ_one]

end Cert.EnergyGrad
-- ==== Proof.Spec.lean ====
import proofs.«112203_j87780541596164_2_alg».proof.Proof.EnergyGradAlgebra
import Idealize.ShloMosaic.PureOps.Ideal.Laws
import Idealize.ShloMosaic.Lib.ValueIdx

/-!
# The result, stated once

For inputs `x` (batch × query row × feature), `W` (feature × hidden) and a scalar `β`, the energy is
`Σ_row -1/2 · Σ_{batch, hidden} max (x · (β W)) 0 ²` and the gradient at (row, feature) is
`0 - Σ_hidden (Σ_batch max (x · (β W)) 0) · (β W)[feature, hidden]`: the row-wise functions of the algebra
module read off the argument arrays by coordinates. The three float words that occur (zero, minus one half,
one) are kept as words here; their values are `zeroW_eq`, `halfW_eq`, `oneW_eq`.
-/

noncomputable section

open scoped BigOperators

namespace Cert.Spec

open Idealize.ShloMosaic Idealize.ShloMosaic.ValueIdx

/-- The word of `0.0`. -/
abbrev zeroW : EReal := Ideal.ofBits .f32 0x00000000#32
/-- The word of `-0.5`. -/
abbrev halfW : EReal := Ideal.ofBits .f32 0xBF000000#32
/-- The word of `1.0`. -/
abbrev oneW : EReal := Ideal.ofBits .f32 0x3F800000#32

theorem zeroW_eq : zeroW = 0 := Ideal.ofBits_zero_f32
theorem halfW_eq : halfW = ((-(1/2) : ℝ) : EReal) := by
  simp [zeroW, halfW, Ideal.ofBits, Ideal.ieee, -EReal.coe_mul]; norm_num
theorem oneW_eq : oneW = 1 := by
  simp [oneW, Ideal.ofBits, Ideal.ieee, -EReal.coe_mul]; norm_num

/-- Query row `l` of the input, as batch × feature. -/
def rowsOf (x : (⟨3, ![8, 1024, 512]⟩ : Shape).Idx → EReal) (l : Fin 1024) (b : Fin 8) (k : Fin 512) : EReal :=
  x (ix3 b l k)
/-- The weights by coordinates. -/
def colsOf (W : (⟨2, ![512, 2048]⟩ : Shape).Idx → EReal) (k : Fin 512) (h : Fin 2048) : EReal := W (ix2 k h)

/-- The energy: one number. -/
def energy (x : (⟨3, ![8, 1024, 512]⟩ : Shape).Idx → EReal) (W : (⟨2, ![512, 2048]⟩ : Shape).Idx → EReal) (β : EReal) :
    (⟨0, ![]⟩ : Shape).Idx → EReal :=
  fun _ => Cert.EnergyGrad.energyK (rowsOf x) (colsOf W) β zeroW halfW

/-- The gradient summed over the batch, at (row, feature). -/
def grad (x : (⟨3, ![8, 1024, 512]⟩ : Shape).Idx → EReal) (W : (⟨2, ![512, 2048]⟩ : Shape).Idx → EReal) (β : EReal) :
    (⟨2, ![1024, 512]⟩ : Shape).Idx → EReal :=
  fun i => Cert.EnergyGrad.gradK (rowsOf x (i 0)) (colsOf W) β zeroW (i 1)

theorem grad_apply (x : (⟨3, ![8, 1024, 512]⟩ : Shape).Idx → EReal) (W : (⟨2, ![512, 2048]⟩ : Shape).Idx → EReal) (β : EReal)
    (r : Fin 1024) (d : Fin 512) :
    grad x W β (ix2 r d) = Cert.EnergyGrad.gradK (rowsOf x r) (colsOf W) β zeroW d := rfl

end Cert.Spec

end
-- ==== Proof.KernelValue.lean ====
import proofs.«112203_j87780541596164_2_alg».proof.Proof.Arrays
import proofs.«112203_j87780541596164_2_alg».proof.Proof.Spec
import Idealize.ShloMosaic.Lib.StableHlo.Run
import Idealize.ShloMosaic.Lib.Pipeline.Value

noncomputable section
open scoped BigOperators

namespace Cert.KernelIdeal.KValue

open Cert.KernelIdeal Cert.KernelIdeal.Gen Cert.KernelIdeal.Arrays Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! The kernel program's two results as the specification's functions of the three arguments: the staged arrays
    are the arguments (a change of float format is the identity on the extended reals; the weights are scaled by
    `β` before they are staged), the region leaves `gradArr` and `rowsArr` of the staged arrays, and the one
    host operation after the region sums the per-row energies. -/

/-- The three arguments as launched, on core `c`. -/
abbrev argX (c : Dev nD) : S8x1024x512.Idx → EReal := m ((c : Thread nD τ).loc main_arg0)
abbrev argW (c : Dev nD) : S512x2048.Idx → EReal := m ((c : Thread nD τ).loc main_arg1)
abbrev argB (c : Dev nD) : EReal := (m ((c : Thread nD τ).loc main_arg2) : S1.Idx → EReal) (ix1 0)

/-- The staged input is the first argument. -/
theorem staged_x (c : Dev nD) : (V m c main_v4 : S8x1024x512.Idx → EReal) = argX m c := by
  show StableHlo.after hostOps0 (fun b => m (c, b)) (Proc.devRef .tc main_v4) = _
  after_results
  rfl

/-- The staged weights are the second argument scaled by `β`, entry by entry. -/
theorem staged_w (c : Dev nD) (k : Fin 512) (h : Fin 2048) :
    (V m c main_v3 : S512x2048.Idx → EReal) (ix2 k h) = argB m c * argW m c (ix2 k h) := by
  have e : (V m c main_v3 : S512x2048.Idx → EReal)
      = (truncf (F := Ideal) .bf16 (mulf (F := Ideal) (φ := .f32)
          (broadcastInDim S512x2048 ![] bcast_S_S512x2048
            (shapeCast S_ (m ((c : Thread nD τ).loc main_arg2) : FVec Ideal S1 .f32) shapeCasts_S1_S_) : FVec Ideal S512x2048 .f32)
          (argW m c : FVec Ideal S512x2048 .f32)) bitsLt_bf16_f32 : FVec Ideal S512x2048 .bf16) := by
    show StableHlo.after hostOps0 (fun b => m (c, b)) (Proc.devRef .tc main_v3) = _
    after_results
    rfl
  rw [e]
  show (broadcastInDim S512x2048 ![] bcast_S_S512x2048
      (shapeCast S_ (m ((c : Thread nD τ).loc main_arg2) : FVec Ideal S1 .f32) shapeCasts_S1_S_) : FVec Ideal S512x2048 .f32) (ix2 k h) * argW m c (ix2 k h) = _
  refine congrArg (fun v => v * argW m c (ix2 k h)) ?_
  refine (broadcastInDim_apply _ bcast_S_S512x2048 _ (ix2 k h) ix0 (fun a => a.elim0)).trans ?_
  exact shapeCast_apply _ shapeCasts_S1_S_ ix0 (ix1 0) rfl

/-- The activation of the staged arrays is the specification's activation of the arguments. -/
theorem actAt_eq (c : Dev nD) (b : Fin 8) (r : Fin 1024) (h : Fin 2048) :
    actAt (V m c main_v4) (V m c main_v3) b r h
      = Cert.EnergyGrad.actK (Cert.Spec.rowsOf (argX m c) r) (Cert.Spec.colsOf (argW m c)) (argB m c) Cert.Spec.zeroW b h := by
  unfold actAt
  rw [staged_x]
  refine congrArg (fun v => max v (Ideal.ofBits .f32 0x00000000#32)) (Finset.sum_congr rfl fun k _ => ?_)
  exact congrArg (fun v => argX m c (ix3 b r k) * v) (staged_w m c k h)

/-- The gradient array is the specification's gradient. -/
theorem grad_final (c : Dev nD) :
    (dats m 0 c).arrAt 2 cfg0.N = Cert.Spec.grad (argX m c) (argW m c) (argB m c) := by
  rw [finalGrad]
  funext i
  obtain ⟨r, d, rfl⟩ : ∃ (r : Fin 1024) (d : Fin 512), i = ix2 r d := ⟨i 0, i 1, eq_ix2 i⟩
  show Ideal.ofBits .f32 0x00000000#32 - ∑ h : Fin 2048, (∑ b : Fin 8, actAt (V m c main_v4) (V m c main_v3) b r h) * (V m c main_v3 : S512x2048.Idx → EReal) (ix2 d h)
    = Cert.Spec.zeroW - ∑ h : Fin 2048, (∑ b : Fin 8, Cert.EnergyGrad.actK (Cert.Spec.rowsOf (argX m c) r) (Cert.Spec.colsOf (argW m c)) (argB m c) Cert.Spec.zeroW b h) * (argB m c * argW m c (ix2 d h))
  refine congrArg (fun v => Ideal.ofBits .f32 0x00000000#32 - v) (Finset.sum_congr rfl fun h _ => ?_)
  exact congrArg₂ (· * ·) (Finset.sum_congr rfl fun b _ => actAt_eq m c b r h) (staged_w m c d h)

/-- The host operation after the region: the per-row energies summed onto zero. -/
theorem tail_energy (c : Dev nD) :
    (Pipeline.afterTail₀ cfgs (dats m) 0 (V0 m) [hostOps1] c main_v6 : S_.Idx → EReal)
      = Host.reduceAdd (F := Ideal) (rowsArr (V m c main_v4) (V m c main_v3)) (constant (F := Ideal) S_ .f32 0x00000000#32) reducesTo_S1024x1_S_d0_1 h_S_ := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v5_1)
      = rowsArr (V m c main_v4) (V m c main_v3) :=
    (Pipeline.withArrays_arr spec0 launch0.win.arr_inj c _ _ 3).trans (finalRows m c)
  rw [hw]

/-- The energy is the specification's energy. -/
theorem energy_final (c : Dev nD) :
    (Pipeline.afterTail₀ cfgs (dats m) 0 (V0 m) [hostOps1] c main_v6 : S_.Idx → EReal)
      = Cert.Spec.energy (argX m c) (argW m c) (argB m c) := by
  rw [tail_energy]
  funext i
  simp only [Host.reduceAdd, Ideal.hostReduceAdd_def]
  refine (Ideal.hostReduceAdd_total reducesTo_S1024x1_S_d0_1 (fun b => b.elim0) (rowsArr (V m c main_v4) (V m c main_v3)) _ i).trans ?_
  rw [sum_idx2]
  show Ideal.ofBits .f32 0x00000000#32 + ∑ l : Fin 1024, ∑ u : Fin 1, rowsArr (V m c main_v4) (V m c main_v3) (ix2 l u)
    = Cert.Spec.zeroW + ∑ l : Fin 1024, ∑ _u : Fin 1, Cert.Spec.halfW * ∑ b : Fin 8, ∑ h : Fin 2048,
        Cert.EnergyGrad.actK (Cert.Spec.rowsOf (argX m c) l) (Cert.Spec.colsOf (argW m c)) (argB m c) Cert.Spec.zeroW b h
        * Cert.EnergyGrad.actK (Cert.Spec.rowsOf (argX m c) l) (Cert.Spec.colsOf (argW m c)) (argB m c) Cert.Spec.zeroW b h
  refine congrArg (fun v => Ideal.ofBits .f32 0x00000000#32 + v) (Finset.sum_congr rfl fun l _ => Finset.sum_congr rfl fun u _ => ?_)
  show Ideal.ofBits .f32 0xBF000000#32 * ∑ b : Fin 8, ∑ h : Fin 2048, actAt (V m c main_v4) (V m c main_v3) b l h * actAt (V m c main_v4) (V m c main_v3) b l h = _
  refine congrArg (fun v => Ideal.ofBits .f32 0xBF000000#32 * v) (Finset.sum_congr rfl fun b _ => Finset.sum_congr rfl fun h _ => ?_)
  exact congrArg₂ (· * ·) (actAt_eq m c b l h) (actAt_eq m c b l h)

/-- THE RUN, READ: every weakly fair execution terminates with the energy and the gradient at the specification's
    functions of the arguments, and the arguments unchanged. -/
theorem run : θ_run defs (onTc (τ := τ) (main (F := Ideal))) ⟨m, fun _ => 0, ρ⟩ fun r => ∀ c : Dev nD,
      r.2.mem ((c.tc : Thread nD τ).loc main_v6) = Cert.Spec.energy (argX m c) (argW m c) (argB m c)
      ∧ r.2.mem ((c.tc : Thread nD τ).loc main_v5_0) = Cert.Spec.grad (argX m c) (argW m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v6 (Pipeline.mem_restRefs_of main_v6 (by decide) (by decide))).trans (energy_final m c),
      ((h c).1 2).trans (grad_final m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue
end
-- ==== Proof.ReferenceValue.lean ====
import proofs.«112203_j87780541596164_2_alg».proof.Proof.Gen.ReferenceIdeal.Read
import proofs.«112203_j87780541596164_2_alg».proof.Proof.Spec

/-!
# The reference's two results, by coordinates

Reading the reference program one operation at a time at an index, its scalar result is the
reference energy and its matrix result at (row, feature) is the reference gradient of the
algebra module, both taken of the argument arrays read by coordinates. Only indices move here:
a sum over a rank-3 index set becomes the triple sum over its coordinates, and each index
computed by a layout operation is an index built from coordinates.
-/

noncomputable section

open scoped BigOperators

namespace Cert.ReferenceIdeal.RefValue

open Cert.ReferenceIdeal Cert.ReferenceIdeal.Gen Cert.ReferenceIdeal.Read Idealize.ShloMosaic Idealize.ShloMosaic.ValueIdx Cert.Spec

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- a select on the answer of "greater than" is the `if` on the order -/
theorem select_ogt {α : Type} (p z : EReal) (A C : α) :
    Scalar.select (Ideal.cmp .ogt p z) A C = if z < p then A else C := by
  have hc : Ideal.cmp .ogt p z = BitVec.ofBool (decide (z < p)) := rfl
  rw [hc]
  by_cases hlt : z < p
  · rw [if_pos hlt, decide_eq_true hlt]
    exact select_one A C
  · rw [if_neg hlt, decide_eq_false hlt]
    exact select_zero A C

section Stages

variable (x0 : (⟨S8x1024x512, .f32⟩ : BufTy).Contents (Elt Ideal)) (x1 : (⟨S512x2048, .f32⟩ : BufTy).Contents (Elt Ideal)) (x2 : (⟨S1, .f32⟩ : BufTy).Contents (Elt Ideal))

theorem lidx_v0 (b : Fin 8) (l : Fin 1024) (h : Fin 2048) (k : Fin 512) :
    lidx_main_v0 (ix3 b l h) k = ix3 b l k :=
  funext fun a => Fin.ext (by match a with | ⟨0, _⟩ => rfl | ⟨1, _⟩ => rfl | ⟨2, _⟩ => rfl)

theorem ridx_v0 (b : Fin 8) (l : Fin 1024) (h : Fin 2048) (k : Fin 512) :
    ridx_main_v0 (ix3 b l h) k = ix2 k h :=
  funext fun a => Fin.ext (by match a with | ⟨0, _⟩ => rfl | ⟨1, _⟩ => rfl)

theorem idx_v21 (l : Fin 1024) (d : Fin 512) (b : Fin 8) : idx_main_v21 (ix2 l d) b = ix3 b l d :=
  funext fun a => Fin.ext (by match a with | ⟨0, _⟩ => rfl | ⟨1, _⟩ => rfl | ⟨2, _⟩ => rfl)

theorem lidx_v20 (b : Fin 8) (l : Fin 1024) (d : Fin 512) (h : Fin 2048) :
    lidx_main_v20 (ix3 b l d) h = ix3 b l h :=
  funext fun a => Fin.ext (by match a with | ⟨0, _⟩ => rfl | ⟨1, _⟩ => rfl | ⟨2, _⟩ => rfl)

theorem ridx_v20 (b : Fin 8) (l : Fin 1024) (d : Fin 512) (h : Fin 2048) :
    ridx_main_v20 (ix3 b l d) h = ix2 d h :=
  funext fun a => Fin.ext (by match a with | ⟨0, _⟩ => rfl | ⟨1, _⟩ => rfl)

theorem idx_v1 (i : S1x1x1.Idx) : idx_main_v1 i = ix1 0 :=
  funext fun a => Fin.ext (by match a with | ⟨0, _⟩ => rfl)

/-- the scaled product at (batch, row, hidden) -/
theorem v3_at (b : Fin 8) (l : Fin 1024) (h : Fin 2048) :
    val_main_v3 (F := Ideal) x0 x1 x2 (ix3 b l h)
      = x2 (ix1 0) * ∑ k, rowsOf x0 l b k * colsOf x1 k h := by
  rw [val_main_v3_apply, val_main_v2_apply, val_main_v1_apply, val_main_v0_apply, idx_v1]
  simp only [lidx_v0, ridx_v0]
  rfl

/-- the activation at (batch, row, hidden) -/
theorem v4_at (b : Fin 8) (l : Fin 1024) (h : Fin 2048) :
    val_main_v4 (F := Ideal) x0 x1 x2 (ix3 b l h)
      = Cert.EnergyGrad.actR (rowsOf x0 l) (colsOf x1) (x2 (ix1 0)) zeroW b h := by
  rw [val_main_v4_apply, v3_at, val_main_call0_v0_apply, val_main_call0_cst_apply]
  rfl

/-- the constant factor `-1/2 · 1`, broadcast -/
theorem v12_at (j : S8x1024x2048.Idx) : val_main_v12 (F := Ideal) j = halfW * oneW := by
  rw [val_main_v12_apply, val_main_v11_apply, val_main_cst_3_apply, val_main_cst_4_apply]
  rfl

/-- the selected term at (batch, row, hidden) -/
theorem v17_at (b : Fin 8) (l : Fin 1024) (h : Fin 2048) :
    val_main_v17 (F := Ideal) x0 x1 x2 (ix3 b l h)
      = if zeroW < x2 (ix1 0) * ∑ k, rowsOf x0 l b k * colsOf x1 k h
        then Cert.EnergyGrad.actR (rowsOf x0 l) (colsOf x1) (x2 (ix1 0)) zeroW b h * (halfW * oneW)
          + (halfW * oneW) * Cert.EnergyGrad.actR (rowsOf x0 l) (colsOf x1) (x2 (ix1 0)) zeroW b h
        else zeroW := by
  rw [val_main_v17_apply, val_main_v6_apply, val_main_v15_apply, val_main_v13_apply, val_main_v14_apply,
    val_main_v16_apply, val_main_cst_5_apply, val_main_v5_apply, val_main_cst_apply, v3_at, v4_at, v12_at]
  exact select_ogt _ _ _ _

/-- the scaled selected term at (batch, row, hidden) -/
theorem v19_at (b : Fin 8) (l : Fin 1024) (h : Fin 2048) :
    val_main_v19 (F := Ideal) x0 x1 x2 (ix3 b l h)
      = x2 (ix1 0) * (if zeroW < x2 (ix1 0) * ∑ k, rowsOf x0 l b k * colsOf x1 k h
        then Cert.EnergyGrad.actR (rowsOf x0 l) (colsOf x1) (x2 (ix1 0)) zeroW b h * (halfW * oneW)
          + (halfW * oneW) * Cert.EnergyGrad.actR (rowsOf x0 l) (colsOf x1) (x2 (ix1 0)) zeroW b h
        else zeroW) := by
  rw [val_main_v19_apply, val_main_v18_apply, val_main_v1_apply, idx_v1, v17_at]
  rfl

end Stages

theorem energy_eq (x0 : (⟨S8x1024x512, .f32⟩ : BufTy).Contents (Elt Ideal)) (x1 : (⟨S512x2048, .f32⟩ : BufTy).Contents (Elt Ideal)) (x2 : (⟨S1, .f32⟩ : BufTy).Contents (Elt Ideal)) :
    val_main_v10 (F := Ideal) x0 x1 x2 = fun _ => Cert.EnergyGrad.energyR (rowsOf x0) (colsOf x1) (x2 (ix1 0)) zeroW halfW := by
  funext i
  rw [val_main_v10_apply, val_main_cst_2_apply, val_main_v9_apply, val_main_cst_1_apply, sum_idx3]
  have hs : (∑ b : Fin 8, ∑ l : Fin 1024, ∑ h : Fin 2048, val_main_v8 (F := Ideal) x0 x1 x2 (ix3 b l h))
      = ∑ b : Fin 8, ∑ l : Fin 1024, ∑ h : Fin 2048,
          Cert.EnergyGrad.actR (rowsOf x0 l) (colsOf x1) (x2 (ix1 0)) zeroW b h
            * Cert.EnergyGrad.actR (rowsOf x0 l) (colsOf x1) (x2 (ix1 0)) zeroW b h := by
    refine Finset.sum_congr rfl fun b _ => Finset.sum_congr rfl fun l _ => Finset.sum_congr rfl fun h _ => ?_
    rw [val_main_v8_apply, v4_at]
    rfl
  rw [hs]
  rfl

theorem grad_eq (x0 : (⟨S8x1024x512, .f32⟩ : BufTy).Contents (Elt Ideal)) (x1 : (⟨S512x2048, .f32⟩ : BufTy).Contents (Elt Ideal)) (x2 : (⟨S1, .f32⟩ : BufTy).Contents (Elt Ideal)) :
    val_main_v21 (F := Ideal) x0 x1 x2 = fun i => Cert.EnergyGrad.gradR (rowsOf x0 (i 0)) (colsOf x1) (x2 (ix1 0)) zeroW halfW oneW (i 1) := by
  funext i
  obtain ⟨l, d, rfl⟩ : ∃ (l : Fin 1024) (d : Fin 512), i = ix2 l d := ⟨i 0, i 1, eq_ix2 i⟩
  show _ = Cert.EnergyGrad.gradR (rowsOf x0 l) (colsOf x1) (x2 (ix1 0)) zeroW halfW oneW d
  rw [val_main_v21_apply, val_main_cst_6_apply]
  have hs : ∀ b : Fin 8, val_main_v20 (F := Ideal) x0 x1 x2 (idx_main_v21 (ix2 l d) b)
      = ∑ h : Fin 2048, (x2 (ix1 0) * (if zeroW < x2 (ix1 0) * ∑ k, rowsOf x0 l b k * colsOf x1 k h
          then Cert.EnergyGrad.actR (rowsOf x0 l) (colsOf x1) (x2 (ix1 0)) zeroW b h * (halfW * oneW)
            + (halfW * oneW) * Cert.EnergyGrad.actR (rowsOf x0 l) (colsOf x1) (x2 (ix1 0)) zeroW b h
          else zeroW)) * colsOf x1 d h := by
    intro b
    rw [idx_v21, val_main_v20_apply]
    refine Finset.sum_congr rfl fun h _ => ?_
    rw [lidx_v20, ridx_v20, v19_at]
    rfl
  rw [Finset.sum_congr rfl fun b _ => hs b]
  rfl

end Cert.ReferenceIdeal.RefValue
-- ==== Proof.FiniteInputs.lean ====
import proofs.«112203_j87780541596164_2_alg».proof.Proof.Gen.Pre_finite_inputs
import Idealize.ShloMosaic.Lib.ReduceAll
import Idealize.ShloMosaic.Lib.ValueIdx
import Idealize.ShloMosaic.PureOps.Ideal.Laws

/-!
# Finite inputs are real arrays

The precondition compares the absolute value of every input element with the word of
`+∞` and takes the conjunction of all the answers. Read at the ideal instance, where an
input element is an extended real, the conjunction being true says that `max x (-x) < ⊤` for
every element `x`, which rules out `⊤` and `⊥`: every input array is the coercion of a real array.
-/

noncomputable section

namespace Cert.FiniteInputs

open Idealize.ShloMosaic

/-- the scalar shape has exactly one index -/
instance subsingleton_scalar_idx : Subsingleton Cert.Pre_finite_inputs.S_.Idx := ⟨fun _ _ => funext fun d => d.elim0⟩

/-- the word `0x7F800000` denotes `+∞` -/
theorem ofBits_inf_f32 : Ideal.ofBits .f32 0x7F800000#32 = (⊤ : EReal) := by
  simp [Ideal.ofBits, Ideal.ieee]

/-- an extended real whose absolute value is below `+∞` is a real number -/
theorem real_of_abs_lt_inf (x : EReal)
    (h : Ideal.cmp .olt (max x (-x)) (Ideal.ofBits .f32 0x7F800000#32) = 1#1) :
    ∃ r : ℝ, x = (r : EReal) := by
  rw [ofBits_inf_f32] at h
  induction x using EReal.rec with
  | bot => exfalso; simp [Ideal.cmp] at h
  | coe r => exact ⟨r, rfl⟩
  | top => exfalso; simp [Ideal.cmp] at h

theorem real_of_pre (x0 : FVec Ideal Cert.Pre_finite_inputs.S8x1024x512 .f32) (x1 : FVec Ideal Cert.Pre_finite_inputs.S512x2048 .f32)
    (x2 : FVec Ideal Cert.Pre_finite_inputs.S1 .f32)
    (h : Cert.Pre_finite_inputs.fn (F := Ideal) x0 x1 x2 = (fun _ => 1#1)) :
    (∃ X : Cert.Pre_finite_inputs.S8x1024x512.Idx → ℝ, x0 = fun i => ((X i : ℝ) : EReal))
    ∧ (∃ W : Cert.Pre_finite_inputs.S512x2048.Idx → ℝ, x1 = fun i => ((W i : ℝ) : EReal))
    ∧ (∃ β : Cert.Pre_finite_inputs.S1.Idx → ℝ, x2 = fun i => ((β i : ℝ) : EReal)) := by
  have h0 := congrFun h ValueIdx.ix0
  dsimp only [Cert.Pre_finite_inputs.fn] at h0
  -- the two conjunctions of the three answers
  obtain ⟨h01, h2⟩ := IntOp.andi_eq_one.1 h0
  obtain ⟨h0', h1⟩ := IntOp.andi_eq_one.1 h01
  -- a conjunction over a whole array that is true is true at every element
  have e0 := fun i => Host.reduce_andi_all _ _ _ _ _ h0' i
  have e1 := fun i => Host.reduce_andi_all _ _ _ _ _ h1 i
  have e2 := fun i => Host.reduce_andi_all _ _ _ _ _ h2 i
  refine ⟨?_, ?_, ?_⟩
  · choose X hX using fun i => real_of_abs_lt_inf (x0 i) (e0 i)
    exact ⟨X, funext hX⟩
  · choose W hW using fun i => real_of_abs_lt_inf (x1 i) (e1 i)
    exact ⟨W, funext hW⟩
  · choose β hβ using fun i => real_of_abs_lt_inf (x2 i) (e2 i)
    exact ⟨β, funext hβ⟩

end Cert.FiniteInputs
-- ==== Proof.Bridge.lean ====
import proofs.«112203_j87780541596164_2_alg».proof.Proof.Spec

/-!
# The two spellings of the result agree on real inputs

The reference scales the product by `β` after contracting and differentiates through the clip with a select; the
kernel folds `β` into the weights, sums the batch before the second product and negates at the end. On inputs that are
real numbers these are the same two functions (the algebra module's two identities), read here off whole arrays.
-/

noncomputable section

namespace Cert.Bridge

open Idealize.ShloMosaic Idealize.ShloMosaic.ValueIdx Cert.Spec

theorem results_agree (x0 : (⟨3, ![8, 1024, 512]⟩ : Shape).Idx → EReal) (x1 : (⟨2, ![512, 2048]⟩ : Shape).Idx → EReal)
    (x2 : (⟨1, ![1]⟩ : Shape).Idx → EReal)
    (h0 : ∃ X : (⟨3, ![8, 1024, 512]⟩ : Shape).Idx → ℝ, x0 = fun i => ((X i : ℝ) : EReal))
    (h1 : ∃ W : (⟨2, ![512, 2048]⟩ : Shape).Idx → ℝ, x1 = fun i => ((W i : ℝ) : EReal))
    (h2 : ∃ β : (⟨1, ![1]⟩ : Shape).Idx → ℝ, x2 = fun i => ((β i : ℝ) : EReal)) :
    ((fun _ => Cert.EnergyGrad.energyR (rowsOf x0) (colsOf x1) (x2 (ix1 0)) zeroW halfW) = energy x0 x1 (x2 (ix1 0)))
    ∧ ((fun i => Cert.EnergyGrad.gradR (rowsOf x0 (i 0)) (colsOf x1) (x2 (ix1 0)) zeroW halfW oneW (i 1)) = grad x0 x1 (x2 (ix1 0))) := by
  obtain ⟨X, rfl⟩ := h0
  obtain ⟨W, rfl⟩ := h1
  obtain ⟨β, rfl⟩ := h2
  refine ⟨funext fun _ => ?_, funext fun i => ?_⟩
  · exact Cert.EnergyGrad.energyR_eq_energyK (fun l b k => X (ix3 b l k)) (fun k h => W (ix2 k h)) (β (ix1 0)) zeroW_eq halfW_eq
  · exact Cert.EnergyGrad.gradR_eq_gradK (fun b k => X (ix3 b (i 0) k)) (fun k h => W (ix2 k h)) (β (ix1 0)) zeroW_eq halfW_eq oneW_eq (i 1)

end Cert.Bridge

end
-- ==== Proof.lean ====
/- The proof of `Cert.Claim`: a kernel that computes, for query rows tiled by 128, the energy
   `-1/2 · Σ relu(x · (β W))²` and its gradient with respect to `x` summed over the batch, against the reference
   that differentiates `-1/2 · Σ relu(β · (x · W))²` and sums the gradient over the batch.
   The three frames are the generated ones (the reference's is its run with the results dropped); nothing was
   rewritten by the idealization, so `preserves` is trivial. For `algebraic`: the kernel's run ends with both results at
   the specification's functions of the arguments (Proof/KernelValue.lean, over Proof/Arrays.lean and Proof/Tile.lean);
   the reference's run ends at its own spelling of them (Proof/ReferenceValue.lean); the inputs are finite, so real
   arrays (Proof/FiniteInputs.lean); and on real arrays the two spellings are one function
   (Proof/EnergyGradAlgebra.lean through Proof/Bridge.lean) — the laws used (moving `β` across the contraction, pulling
   `-1/2` out of the sums, exchanging the batch sum with the second product) need finiteness on the extended reals. -/
import proofs.«112203_j87780541596164_2_alg».proof.Defs
import proofs.«112203_j87780541596164_2_alg».proof.Proof.Gen.Kernel
import proofs.«112203_j87780541596164_2_alg».proof.Proof.Gen.Kernel.Frame
import proofs.«112203_j87780541596164_2_alg».proof.Proof.Gen.KernelIdeal
import proofs.«112203_j87780541596164_2_alg».proof.Proof.Gen.KernelIdeal.Frame
import proofs.«112203_j87780541596164_2_alg».proof.Proof.Gen.ReferenceIdeal
import proofs.«112203_j87780541596164_2_alg».proof.Proof.Gen.ReferenceIdeal.Run
import proofs.«112203_j87780541596164_2_alg».proof.Proof.Gen.ReferenceIdeal.Read
import proofs.«112203_j87780541596164_2_alg».proof.Proof.Gen.Pre_finite_inputs
import proofs.«112203_j87780541596164_2_alg».proof.Proof.KernelValue
import proofs.«112203_j87780541596164_2_alg».proof.Proof.ReferenceValue
import proofs.«112203_j87780541596164_2_alg».proof.Proof.FiniteInputs
import proofs.«112203_j87780541596164_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the specification's energy and gradient of the (agreeing, finite) arguments. -/
theorem algebraic : Cert.algebraic_KernelIdeal_ReferenceIdeal := by
  intro m ρ m' ρ' hpre hagree
  refine ⟨fun c => Cert.Spec.energy (Cert.KernelIdeal.KValue.argX m c) (Cert.KernelIdeal.KValue.argW m c) (Cert.KernelIdeal.KValue.argB m c),
    fun c => Cert.Spec.grad (Cert.KernelIdeal.KValue.argX m c) (Cert.KernelIdeal.KValue.argW m c) (Cert.KernelIdeal.KValue.argB m c),
    Cert.KernelIdeal.KValue.run m ρ, ?_⟩
  refine (θ_run Cert.ReferenceIdeal.defs _ _).mono (fun _ h c => ?_) (Cert.ReferenceIdeal.Value.run (F := Ideal) m' ρ')
  obtain ⟨h10, h21, ha0, ha1, ha2⟩ := h c
  obtain ⟨g0, g1, g2⟩ := hagree c
  have hfin := Cert.FiniteInputs.real_of_pre _ _ _ (hpre c)
  have hb := Cert.Bridge.results_agree _ _ _ hfin.1 hfin.2.1 hfin.2.2
  refine ⟨?_, ?_, ha0, ha1, ha2⟩
  · rw [h10, Cert.ReferenceIdeal.Read.val_main_v10_eq, Cert.ReferenceIdeal.RefValue.energy_eq, g0, g1, g2]
    exact hb.1
  · rw [h21, Cert.ReferenceIdeal.Read.val_main_v21_eq, Cert.ReferenceIdeal.RefValue.grad_eq, g0, g1, g2]
    exact hb.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
